-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S512x512 : Shape := ⟨2, ![512, 512]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x1024 .f32) (main_arg1 : FVec F S512x512 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x1024 : Shape := ⟨2, ![65536, 1024]⟩
abbrev S512x512 : Shape := ⟨2, ![512, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S512x512, .f32⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512_S512x512_1_0 : S512x512.Transposes [1, 0] S512x512
  inb_S1024x1024_S1024x512_0_0 : ∀ a, (![0, 0] : Fin 2 → Nat) a + S1024x512.size a ≤ S1024x1024.size a
  h_S1024x512 : 0 < S1024x512.numel
  inb_S1024x1024_S1024x512_0_512 : ∀ a, (![0, 512] : Fin 2 → Nat) a + S1024x512.size a ≤ S1024x1024.size a
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S512x512 : Shape := ⟨2, ![512, 512]⟩
abbrev S65536x512 : Shape := ⟨2, ![65536, 512]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S65536x512, .f32⟩
  | .hbm, ⟨5, _⟩ => ⟨S65536x512, .f32⟩
  | .hbm, ⟨6, _⟩ => ⟨S65536x512, .f32⟩
  | .hbm, ⟨7, _⟩ => ⟨S65536x512, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  transposes_S512x512_S512x512_1_0 : S512x512.Transposes [1, 0] S512x512
  slices_S65536x1024_S65536x512_0_0 : S65536x1024.Slices ![0, 0] S65536x512
  slices_S65536x1024_S65536x512_0_512 : S65536x1024.Slices ![0, 512] S65536x512
  concatenates_S65536x512_S65536x512_S65536x1024_d1 : Shape.Concatenates [S65536x512, S65536x512] S65536x1024 1
  dot_S65536x512_S512x512_S65536x512_1_1_0_0_n_n_wf : DotDims.WF S65536x512 S512x512 S65536x512 [1] [1] [0] [0] [] []

variable [Facts₀]

def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.Spec.lean ====
/-
  The result as one function of the two argument tables.

  A row of width 1024 is a pair `[p | q]` of two halves of width 512. With a coefficient table `S` over
  `[512, 512]` the updated row is `[p + q·S | q]`: column `c < 512` holds `p[c] + Σ_d q[d] · S[d, c]`, and
  column `c ≥ 512` is kept. The table is the symmetrization `S = A + Aᵀ`, so `S[d, e] = S[e, d]` by
  commutativity of the sum alone (no finiteness is used: the identity holds on all extended reals), and
  contracting a row of `q` against the rows of `S` or against its columns gives the same number.
-/
import Idealize.ShloMosaic.PureOps.Ideal
import Idealize.ShloMosaic.Lib.ValueIdx

noncomputable section

namespace Cert.Spec

open Idealize.ShloMosaic Idealize.ShloMosaic.ValueIdx

/-- Column `512 + d` of a row of width 1024: entry `d` of the row's second half. -/
abbrev hi (d : Fin 512) : Fin 1024 := ⟨512 + d.val, by have := d.isLt; omega⟩

/-- The symmetrized table `A + Aᵀ` at `(d, e)`. -/
def symm (A : (⟨2, ![512, 512]⟩ : Shape).Idx → EReal) (d e : Fin 512) : EReal := A (ix2 d e) + A (ix2 e d)

/-- It is symmetric. -/
theorem symm_comm (A : (⟨2, ![512, 512]⟩ : Shape).Idx → EReal) (d e : Fin 512) : symm A d e = symm A e d :=
  add_comm _ _

/-- Entry `(r, c)` of the updated table, for a table `x` of `R` rows of width 1024 and coefficients `S`:
    `x[r, c] + Σ_d x[r, 512 + d] · S d c` in the first half of the row, `x[r, c]` in the second. -/
def rowOut {R : Nat} (x : (⟨2, ![R, 1024]⟩ : Shape).Idx → EReal) (S : Fin 512 → Fin 512 → EReal) (r : Fin R) (c : Fin 1024) : EReal :=
  if h : c.val < 512 then x (ix2 r c) + ∑ d : Fin 512, x (ix2 r (hi d)) * S d ⟨c.val, h⟩ else x (ix2 r c)

/-- The updated entry depends on the table only through its row, and on the coefficients only through their
    values: a row of a tile and the same row of the whole table give the same entry. -/
theorem rowOut_congr {R R' : Nat} (x : (⟨2, ![R, 1024]⟩ : Shape).Idx → EReal) (x' : (⟨2, ![R', 1024]⟩ : Shape).Idx → EReal)
    (S S' : Fin 512 → Fin 512 → EReal) (r : Fin R) (r' : Fin R') (c : Fin 1024)
    (hx : ∀ c' : Fin 1024, x (ix2 r c') = x' (ix2 r' c')) (hS : ∀ d e, S d e = S' d e) :
    rowOut x S r c = rowOut x' S' r' c := by
  unfold rowOut
  simp only [hx, hS]

/-- The whole result: the table `pq` over `[65536, 1024]` updated row by row with `S = A + Aᵀ`. -/
def G (pq : (⟨2, ![65536, 1024]⟩ : Shape).Idx → EReal) (A : (⟨2, ![512, 512]⟩ : Shape).Idx → EReal) :
    (⟨2, ![65536, 1024]⟩ : Shape).Idx → EReal :=
  fun i => rowOut pq (symm A) (i 0) (i 1)

theorem G_apply (pq : (⟨2, ![65536, 1024]⟩ : Shape).Idx → EReal) (A : (⟨2, ![512, 512]⟩ : Shape).Idx → EReal)
    (r : Fin 65536) (c : Fin 1024) : G pq A (ix2 r c) = rowOut pq (symm A) r c := rfl

end Cert.Spec

end
-- ==== Proof.LibPlainDot.lean ====
/-
  A plain two-dimensional matrix product read at an index, at the ideal values.

  For a dot of an `[M, K]` table with a `[K, N]` table that contracts the left operand's last axis with the right
  operand's first and has no batch axis, the element `(p, q)` of the product is `Σ_{k < K} l[p, k] · r[k, q]`:
  for the host's `dot_general`, and for a kernel's `tpu.matmul` into the zero accumulator. The record's contraction
  index (a one-axis multi-index) is re-indexed over `Fin K`. The hypotheses are the facts about the dimension record
  that a literal record gives by computation: the contraction shape is one axis of extent `K`; the contracted axes
  are `1` on the left and `0` on the right; the left operand's row and the right operand's column are the result's.
-/
import Idealize.ShloMosaic.PureOps.Ideal.Laws
import Idealize.ShloMosaic.Lib.ValueIdx

noncomputable section

namespace Cert.PlainDot

open Idealize.ShloMosaic Idealize.ShloMosaic.ValueIdx

variable {M K N : Nat} (d : DotDims ⟨2, ![M, K]⟩ ⟨2, ![K, N]⟩ ⟨2, ![M, N]⟩)

/-- The sum over the record's contraction index is the sum over `k < K` of the row's entry times the column's. -/
theorem sum_contr (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- The host's `dot_general` at `(p, q)`. -/
theorem dotGeneral_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_contr d hr hs hlc hrc hl0 hr1 l r p q)

/-- A kernel's `tpu.matmul` into the zero splat at `(p, q)`. -/
theorem matmul_zero_apply {φ₁ φ₂ : FTy} (hr : d.contr.rank = 1) (hs : d.contr.size ⟨0, by omega⟩ = K)
    (hlc : d.lhsContracting = [⟨1, Nat.one_lt_two⟩]) (hrc : d.rhsContracting = [⟨0, Nat.zero_lt_two⟩])
    (hl0 : ∀ j k, (d.lhsIdx j k ⟨0, Nat.zero_lt_two⟩).val = (j ⟨0, Nat.zero_lt_two⟩).val)
    (hr1 : ∀ j k, (d.rhsIdx j k ⟨1, Nat.one_lt_two⟩).val = (j ⟨1, Nat.one_lt_two⟩).val)
    (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) :=
  (Ideal.matmul_constant_zero_apply d prec l r (ix2 p q)).trans (sum_contr d hr hs hlc hrc hl0 hr1 l r p q)

end Cert.PlainDot

end
-- ==== Proof.Tile.lean ====
/-
  One tile of the kernel: what the body leaves in its output tile, entry by entry.

  The body reads a tile `x0` of 1024 rows of width 1024 and the whole coefficient table `x1` over `[512, 512]`,
  stores `p + q · x1` (a matrix product into the zero accumulator; the change of float format on its operands is
  the identity on extended reals) through the left half of the output tile and `q` through the right half. The two
  stores tile the output, so the tile ends as the row update `Spec.rowOut` of `x0` with coefficients `x1`.
-/
import proofs.«165390_j86784109183252_1_alg».proof.Proof.Gen.KernelIdeal.Frame
import proofs.«165390_j86784109183252_1_alg».proof.Proof.Spec
import proofs.«165390_j86784109183252_1_alg».proof.Proof.LibPlainDot
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The left operand's row is the result's row. -/
theorem dot_lhs_row (j : S1024x512.Idx) (k : dot_S1024x512_S512x512_S1024x512_1_0_0_1_n_n.contr.Idx) :
    (dot_S1024x512_S512x512_S1024x512_1_0_0_1_n_n.lhsIdx j k ⟨0, Nat.zero_lt_two⟩).val = (j ⟨0, Nat.zero_lt_two⟩).val := by
  unfold DotDims.lhsIdx
  rw [dif_neg (show ¬(⟨0, Nat.zero_lt_two⟩ : Fin S1024x512.rank) ∈ dot_S1024x512_S512x512_S1024x512_1_0_0_1_n_n.lhsBatch by decide),
    dif_pos (show (⟨0, Nat.zero_lt_two⟩ : Fin S1024x512.rank) ∈ dot_S1024x512_S512x512_S1024x512_1_0_0_1_n_n.lhsNonContracting by decide)]
  rfl

/-- The right operand's column is the result's column. -/
theorem dot_rhs_col (j : S1024x512.Idx) (k : dot_S1024x512_S512x512_S1024x512_1_0_0_1_n_n.contr.Idx) :
    (dot_S1024x512_S512x512_S1024x512_1_0_0_1_n_n.rhsIdx j k ⟨1, Nat.one_lt_two⟩).val = (j ⟨1, Nat.one_lt_two⟩).val := by
  unfold DotDims.rhsIdx
  rw [dif_neg (show ¬(⟨1, Nat.one_lt_two⟩ : Fin S512x512.rank) ∈ dot_S1024x512_S512x512_S1024x512_1_0_0_1_n_n.rhsBatch by decide),
    dif_pos (show (⟨1, Nat.one_lt_two⟩ : Fin S512x512.rank) ∈ dot_S1024x512_S512x512_S1024x512_1_0_0_1_n_n.rhsNonContracting by decide)]
  rfl

/-- The stored left half at `(r, e)`: `p[r, e] + Σ_d q[r, d] · x1[d, e]`. -/
theorem pay_apply (v0 v1 : Vec Ideal S1024x512 .f32) (v3 : Vec Ideal S512x512 .f32) (r : Fin 1024) (e : Fin 512) :
    k0_pay1 (F := Ideal) v0 v1 v3 (ix2 r e) = v0 (ix2 r e) + ∑ d : Fin 512, v1 (ix2 r d) * v3 (ix2 d e) := by
  unfold k0_pay1
  refine congrArg (v0 (ix2 r e) + ·) ?_
  refine (Cert.PlainDot.matmul_zero_apply (M := 1024) (K := 512) (N := 512) dot_S1024x512_S512x512_S1024x512_1_0_0_1_n_n
    rfl rfl rfl rfl dot_lhs_row dot_rhs_col none _ _ r e).trans ?_
  refine Finset.sum_congr rfl fun d _ => ?_
  rw [shapeCast_self]
  rfl

/-- Under the newest store, made through a unit-stride rectangle, an entry whose coordinates are the
    rectangle's offsets plus a position inside it reads the stored value at that position. -/
theorem canon_newest {S : Shape} {e : EltTy} {off size : Fin S.rank → Nat} (inb : ∀ a, off a + size a ≤ S.size a)
    (w : (Rect.unit off size inb).shape.Idx → Elt Ideal e) (L : List (View.Piece (Elt Ideal) S e)) (y : S.Idx)
    (x : (Rect.unit off size inb).shape.Idx) (hx : ∀ a, (y a).val = off a + 1 * (x a).val) :
    View.canon (⟨Rect.unit off size inb, w⟩ :: L) y = w x := by
  have he : y = (Rect.unit off size inb).emb x := funext fun a => Fin.ext (hx a)
  rw [he]
  exact View.canon_cons_emb _ w L x

/-- A load through a unit-stride rectangle reads the buffer at the offsets plus the position. -/
theorem ld_at {S : Shape} {e : EltTy} {off size : Fin S.rank → Nat} (inb : ∀ a, off a + size a ≤ S.size a)
    (X : S.Idx → Elt Ideal e) (x : (Rect.unit off size inb).shape.Idx) (y : S.Idx)
    (hx : ∀ a, (y a).val = off a + 1 * (x a).val) :
    View.ld X (Rect.unit off size inb) x = X y :=
  congrArg X (funext fun a => Fin.ext (hx a).symm)

/-- THE TILE AFTER THE BODY, entry by entry: the row update of the input tile with the loaded coefficients. -/
theorem out_apply (x0 : Vec Ideal S1024x1024 .f32) (x1 : Vec Ideal S512x512 .f32) (r c : Fin 1024) :
    out0_2 (F := Ideal) x0 x1 (ix2 r c) = Spec.rowOut x0 (fun d e => x1 (ix2 d e)) r c := by
  unfold out0_2 Spec.rowOut
  by_cases h : c.val < 512
  · rw [dif_pos h]
    -- the right half's store misses the entry; the left half's holds it
    refine (View.canon_cons_of_not_mem _ _ ?_).trans ?_
    · dsimp only
      rw [Rect.mem_set_unit]
      intro hm
      have h1 : 512 ≤ c.val := (hm (1 : Fin 2)).1
      omega
    refine (canon_newest _ _ _ (ix2 r c) (ix2 r (⟨c.val, h⟩ : Fin 512)) (fun a => by
      match a with
      | ⟨0, _⟩ => show r.val = 0 + 1 * r.val; omega
      | ⟨1, _⟩ => show c.val = 0 + 1 * c.val; omega)).trans ?_
    rw [pay_apply]
    refine congrArg₂ (· + ·) (ld_at _ x0 _ (ix2 r c) (fun a => by
      match a with
      | ⟨0, _⟩ => show r.val = 0 + 1 * r.val; omega
      | ⟨1, _⟩ => show c.val = 0 + 1 * c.val; omega)) (Finset.sum_congr rfl fun d _ => ?_)
    refine congrArg₂ (· * ·) (ld_at _ x0 _ (ix2 r (Spec.hi d)) (fun a => by
      match a with
      | ⟨0, _⟩ => show r.val = 0 + 1 * r.val; omega
      | ⟨1, _⟩ => show 512 + d.val = 512 + 1 * d.val; omega)) (ld_at _ x1 _ (ix2 d (⟨c.val, h⟩ : Fin 512)) (fun a => by
      match a with
      | ⟨0, _⟩ => show d.val = 0 + 1 * d.val; omega
      | ⟨1, _⟩ => show c.val = 0 + 1 * c.val; omega))
  · rw [dif_neg h]
    have hc : c.val < 1024 := c.isLt
    refine (canon_newest _ _ _ (ix2 r c) (ix2 r (⟨c.val - 512, by omega⟩ : Fin 512)) (fun a => by
      match a with
      | ⟨0, _⟩ => show r.val = 0 + 1 * r.val; omega
      | ⟨1, _⟩ => show c.val = 512 + 1 * (c.val - 512); omega)).trans ?_
    exact ld_at _ x0 _ (ix2 r c) (fun a => by
      match a with
      | ⟨0, _⟩ => show r.val = 0 + 1 * r.val; omega
      | ⟨1, _⟩ => show c.val = 512 + 1 * (c.val - 512); omega)

/-- THE TILE IS THE SPECIFICATION'S ROWS. If the input tile `x0` is rows `1024 k … 1024 k + 1023` of the table `pq`
    and the loaded coefficients `x1` are the symmetrization of `A`, then entry `y` of the tile the body leaves is
    entry `i` of the specification, for `i` the same column in row `1024 k + (row of y)`. -/
theorem tile_eq (pq : S65536x1024.Idx → EReal) (A : S512x512.Idx → EReal)
    (x0 : Vec Ideal S1024x1024 .f32) (x1 : Vec Ideal S512x512 .f32) (k : Nat)
    (h0 : ∀ (y' : S1024x1024.Idx) (i' : S65536x1024.Idx), (i' 0).val = k * 1024 + (y' 0).val → (i' 1).val = (y' 1).val → x0 y' = pq i')
    (h1 : ∀ d e : Fin 512, x1 (ix2 d e) = Spec.symm A d e)
    (y : S1024x1024.Idx) (i : S65536x1024.Idx) (hi0 : (i 0).val = k * 1024 + (y 0).val) (hi1 : (i 1).val = (y 1).val) :
    out0_2 (F := Ideal) x0 x1 y = Spec.G pq A i := by
  obtain ⟨r, c, rfl⟩ : ∃ (r c : Fin 1024), y = ix2 r c := ⟨y 0, y 1, eq_ix2 y⟩
  obtain ⟨b, c', rfl⟩ : ∃ (b : Fin 65536) (c' : Fin 1024), i = ix2 b c' := ⟨i 0, i 1, eq_ix2 i⟩
  obtain rfl : c' = c := Fin.ext hi1
  rw [out_apply, Spec.G_apply]
  exact Spec.rowOut_congr _ _ _ _ r b c' (fun c'' => h0 (ix2 r c'') (ix2 b c'') hi0 rfl) h1

end Cert.KernelIdeal.Tile

end
-- ==== Proof.Whole.lean ====
/-
  The kernel's result array is the specification of the argument arrays.

  The grid has 64 points; point `t` reads rows `1024 t … 1024 t + 1023` of `pq` and the whole coefficient table,
  which the host prepared before the region as `A + Aᵀ`, and writes back the same rows of the result. What it writes
  is the row update of its tile (`Tile.tile_eq`), that is, the same rows of the specification; the 64 tiles cover
  the array, so the array ends as the specification.
-/
import proofs.«165390_j86784109183252_1_alg».proof.Proof.Gen.KernelIdeal.Value
import proofs.«165390_j86784109183252_1_alg».proof.Proof.Tile
import proofs.«165390_j86784109183252_1_alg».proof.Proof.Spec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The index maps over the grid: the wide windows sit at block `(t, 0)`, the coefficient window at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The coefficient table as the region finds it: the host's `A + Aᵀ`. -/
theorem coeff_eq (c : Dev nD) : @Eq (S512x512.Idx → EReal) (V m c main_v1)
    (addf (F := Ideal) (φ := .f32) (m ((c : Thread nD τ).loc main_arg1)) (transpose S512x512 [1, 0] (m ((c : Thread nD τ).loc main_arg1)) transposes_S512x512_S512x512_1_0)) := by
  dsimp only [Gen.V, Gen.hostOps0]
  after_results

/-- Entry `(d, e)` of it is the symmetrization of `A`. -/
theorem coeff_apply (c : Dev nD) (d e : Fin 512) :
    (V m c main_v1 : S512x512.Idx → EReal) (ix2 d e) = Spec.symm (m ((c : Thread nD τ).loc main_arg1)) d e := by
  rw [coeff_eq]
  show _ + transpose S512x512 [1, 0] (m ((c : Thread nD τ).loc main_arg1)) transposes_S512x512_S512x512_1_0 (ix2 d e) = _
  rw [transpose_apply [1, 0] (m ((c : Thread nD τ).loc main_arg1)) transposes_S512x512_S512x512_1_0 (ix2 d e) (ix2 e d) (fun b => match b with
    | ⟨0, _⟩ => rfl
    | ⟨1, _⟩ => rfl)]
  rfl

/-- WHAT POINT `t` WRITES BACK is block `t` of the specification of the argument arrays. -/
theorem flushed_eq (c : Dev nD) (t : Fin cfg0.N) :
    (dats m 0 c).flushed 2 t = ((cfg0.win 2).blk t).view.read (Elt Ideal)
      (Spec.G (m ((c : Thread nD τ).loc main_arg0)) (m ((c : Thread nD τ).loc main_arg1))) := by
  rw [flushed2]
  obtain ⟨e0, e1, e2, e3, e4, e5⟩ := idx_facts t
  funext y
  show out0_2 (iblk m c 0 t) (iblk m c 1 t) y = Spec.G _ _ (((cfg0.win 2).blk t).view.emb y)
  refine Tile.tile_eq _ _ (iblk m c 0 t) (iblk m c 1 t) t.val ?_ ?_ y _ ?_ ?_
  · intro y' i' h0 h1
    show V m c main_arg0 (((cfg0.win 0).blk t).view.emb y') = _
    rw [V_main_arg0]
    refine congrArg (m ((c : Thread nD τ).loc main_arg0)) (funext fun a => Fin.ext ?_)
    match a with
    | ⟨0, _⟩ => show win0_0.index t (0 : Fin 2) * 1024 + 1 * (y' 0).val = (i' 0).val; omega
    | ⟨1, _⟩ => show win0_0.index t (1 : Fin 2) * 1024 + 1 * (y' 1).val = (i' 1).val; omega
  · intro d e
    show V m c main_v1 (((cfg0.win 1).blk t).view.emb (ix2 d e)) = _
    have he : ((cfg0.win 1).blk t).view.emb (ix2 d e) = ix2 d e := funext fun a => Fin.ext (by
      match a with
      | ⟨0, _⟩ => show win0_1.index t (0 : Fin 2) * 512 + 1 * d.val = d.val; omega
      | ⟨1, _⟩ => show win0_1.index t (1 : Fin 2) * 512 + 1 * e.val = e.val; omega)
    rw [he]
    exact coeff_apply m c d e
  · show win0_2.index t (0 : Fin 2) * 1024 + 1 * (y 0).val = t.val * 1024 + (y 0).val; omega
  · show win0_2.index t (1 : Fin 2) * 1024 + 1 * (y 1).val = (y 1).val; omega

/-- An index of the array is in point `t`'s block iff each coordinate is in the block's range on its axis. -/
theorem mem_blk (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every entry of the array is in the block of the point its row names: row `r` is in block `r / 1024`. -/
theorem cover (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 64 := N_0
  have hlt : (i 0).val / 1024 < cfg0.N := by rw [hN]; omega
  obtain ⟨e0, e1, e2, e3, e4, e5⟩ := idx_facts ⟨(i 0).val / 1024, hlt⟩
  have e4' : win0_2.index ⟨(i 0).val / 1024, hlt⟩ (0 : Fin 2) = (i 0).val / 1024 := e4
  refine ⟨⟨(i 0).val / 1024, hlt⟩, flush0_2 _, ?_⟩
  rw [mem_blk]
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    omega
  | ⟨1, _⟩ =>
    show win0_2.index ⟨(i 0).val / 1024, hlt⟩ (1 : Fin 2) * 1024 ≤ (i 1).val ∧ (i 1).val < win0_2.index ⟨(i 0).val / 1024, hlt⟩ (1 : Fin 2) * 1024 + 1024
    omega

/-- THE ARRAY after the run is the specification of the argument arrays. -/
theorem final (c : Dev nD) : (dats m 0 c).arrAt 2 cfg0.N
    = Spec.G (m ((c : Thread nD τ).loc main_arg0)) (m ((c : Thread nD τ).loc main_arg1)) :=
  (dats m 0 c).arrAt_eq_of_cover 2 (Spec.G (m ((c : Thread nD τ).loc main_arg0)) (m ((c : Thread nD τ).loc main_arg1)))
    (fun t _ => flushed_eq m c t) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v2) = Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference computes the specification.

  The reference slices the table `pq` into its halves `p` and `q`, contracts each row of `q` against the ROWS of
  `S = A + Aᵀ` (`Σ_d q[b, d] · S[e, d]`), adds `p`, and lays the result beside `q`. Since `S` is symmetric this is
  the contraction against its columns, `Σ_d q[b, d] · S[d, e]`, which is how the specification is written.
-/
import proofs.«165390_j86784109183252_1_alg».proof.Proof.Gen.ReferenceIdeal.Read
import proofs.«165390_j86784109183252_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The contraction at `(b, e)`: row `b` of `q` against row `e` of `A + Aᵀ`, which is its column `e`. -/
theorem dot_apply (x0 : S65536x1024.Idx → EReal) (x1 : S512x512.Idx → EReal) (b : Fin 65536) (e : Fin 512) :
    val_main_v4 (F := Ideal) x0 x1 (ix2 b e) = ∑ d : Fin 512, x0 (ix2 b (Spec.hi d)) * Spec.symm x1 d e := by
  rw [val_main_v4_apply]
  refine Finset.sum_congr rfl fun d _ => ?_
  rw [val_main_v3_apply, val_main_v1_apply, val_main_v0_apply, Spec.symm_comm]
  have e1 : idx_main_v3 (lidx_main_v4 (ix2 b e) d) = ix2 b (Spec.hi d) := funext fun a => Fin.ext (by
    match a with
    | ⟨0, _⟩ => rfl
    | ⟨1, _⟩ => rfl)
  have e2 : ridx_main_v4 (ix2 b e) d = ix2 e d := funext fun a => Fin.ext (by
    match a with
    | ⟨0, _⟩ => rfl
    | ⟨1, _⟩ => rfl)
  have e3 : idx_main_v0 (ix2 e d) = ix2 d e := funext fun a => Fin.ext (by
    match a with
    | ⟨0, _⟩ => rfl
    | ⟨1, _⟩ => rfl)
  rw [e1, e2, e3]
  rfl

/-- THE REFERENCE'S RESULT is the specification of its two arguments. -/
theorem result_eq (x0 : S65536x1024.Idx → EReal) (x1 : S512x512.Idx → EReal) :
    val_main_v6 (F := Ideal) x0 x1 = Spec.G x0 x1 := by
  funext i
  obtain ⟨b, c, rfl⟩ : ∃ (b : Fin 65536) (c : Fin 1024), i = ix2 b c := ⟨i 0, i 1, eq_ix2 i⟩
  rw [Spec.G_apply]
  unfold val_main_v6 Spec.rowOut
  by_cases h : c.val < 512
  · rw [dif_pos h]
    refine (concatenate_pair_apply_left (t := S65536x1024) (s₁ := S65536x512) (s₂ := S65536x512) (1 : Fin 2) _ _ concatenates_S65536x512_S65536x512_S65536x1024_d1 (ix2 b c) rfl
      (ix2 b (⟨c.val, h⟩ : Fin 512)) (fun a => by
        match a with
        | ⟨0, _⟩ => rfl
        | ⟨1, _⟩ => rfl)).trans ?_
    rw [val_main_v5_apply, val_main_v2_apply, dot_apply]
    have e1 : idx_main_v2 (ix2 b (⟨c.val, h⟩ : Fin 512)) = ix2 b c := funext fun a => Fin.ext (by
      match a with
      | ⟨0, _⟩ => rfl
      | ⟨1, _⟩ => rfl)
    rw [e1]
    rfl
  · rw [dif_neg h]
    have hc : c.val < 1024 := c.isLt
    refine (concatenate_pair_apply_right (t := S65536x1024) (s₁ := S65536x512) (s₂ := S65536x512) (1 : Fin 2) _ _ concatenates_S65536x512_S65536x512_S65536x1024_d1 (ix2 b c) rfl rfl
      (ix2 b (⟨c.val - 512, by omega⟩ : Fin 512)) (fun a ha => by
        match a with
        | ⟨0, _⟩ => rfl
        | ⟨1, _⟩ => exact absurd rfl ha) (by show c.val - 512 + 512 = c.val; omega)).trans ?_
    rw [val_main_v3_apply]
    exact congrArg x0 (funext fun a => Fin.ext (by
      match a with
      | ⟨0, _⟩ => rfl
      | ⟨1, _⟩ => show 512 + (c.val - 512) = c.val; omega))

end Cert.ReferenceIdeal.RefValue

end
-- ==== Proof.lean ====
/-
  The kernel against its reference, over the extended reals.

  Both programs take a table `pq` over `[65536, 1024]`, whose rows are pairs `[p | q]` of width 512 each, and a
  table `A` over `[512, 512]`, form `S = A + Aᵀ`, and return the rows `[p + q·S | q]`. The kernel works through
  the rows in 64 tiles of 1024 rows, multiplying each tile's `q` by `S` (entry `(b, e)` is `Σ_d q[b, d] · S[d, e]`);
  the reference contracts against the rows of `S` instead (`Σ_d q[b, d] · S[e, d]`). The two agree because `S` is
  symmetric, which is commutativity of the sum `A[d, e] + A[e, d]` and holds on all extended reals: the
  finiteness of the inputs is not used. Both runs are shown to end with the result array at one function
  `Spec.G` of the argument arrays.
-/
import proofs.«165390_j86784109183252_1_alg».proof.Defs
import proofs.«165390_j86784109183252_1_alg».proof.Proof.Gen.Kernel
import proofs.«165390_j86784109183252_1_alg».proof.Proof.Gen.Kernel.Skeleton
import proofs.«165390_j86784109183252_1_alg».proof.Proof.Gen.Kernel.Launch
import proofs.«165390_j86784109183252_1_alg».proof.Proof.Gen.Kernel.Points
import proofs.«165390_j86784109183252_1_alg».proof.Proof.Gen.Kernel.Frame
import proofs.«165390_j86784109183252_1_alg».proof.Proof.Gen.KernelIdeal
import proofs.«165390_j86784109183252_1_alg».proof.Proof.Gen.KernelIdeal.Skeleton
import proofs.«165390_j86784109183252_1_alg».proof.Proof.Gen.KernelIdeal.Launch
import proofs.«165390_j86784109183252_1_alg».proof.Proof.Gen.KernelIdeal.Points
import proofs.«165390_j86784109183252_1_alg».proof.Proof.Gen.KernelIdeal.Frame
import proofs.«165390_j86784109183252_1_alg».proof.Proof.Gen.ReferenceIdeal
import proofs.«165390_j86784109183252_1_alg».proof.Proof.Gen.Pre_finite_inputs
import proofs.«165390_j86784109183252_1_alg».proof.Proof.Gen.KernelIdeal.Value
import proofs.«165390_j86784109183252_1_alg».proof.Proof.Gen.ReferenceIdeal.Run
import proofs.«165390_j86784109183252_1_alg».proof.Proof.Gen.ReferenceIdeal.Read
import proofs.«165390_j86784109183252_1_alg».proof.Proof.Spec
import proofs.«165390_j86784109183252_1_alg».proof.Proof.Whole
import proofs.«165390_j86784109183252_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories agreeing on `pq` and `A`, both programs end with the result array at `Spec.G pq A`: the kernel
    tile by tile (`Whole.run`), the reference operation by operation (`RefValue.result_eq`). -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
